-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S5000x64 : Shape := ⟨2, ![5000, 64]⟩
abbrev S5000x1 : Shape := ⟨2, ![5000, 1]⟩
abbrev S1100000x64 : Shape := ⟨2, ![1100000, 64]⟩
abbrev S1x64 : Shape := ⟨2, ![1, 64]⟩

abbrev nBuf : Space → Nat
  | .hbm => 45
  | .vmem => 7
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1000000, .i32⟩
  | .hbm, ⟨6, _⟩ => ⟨S1000000, .i32⟩
  | .hbm, ⟨7, _⟩ => ⟨S1100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000x64, .f32⟩
  | .hbm, ⟨36, _⟩ => ⟨S_, .f32⟩
  | .hbm, ⟨37, _⟩ => ⟨S100000x64, .f32⟩
  | .hbm, ⟨38, _⟩ => ⟨S1100000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1000000, .i32⟩
  | .hbm, ⟨6, _⟩ => ⟨S1000000, .i32⟩
  | .hbm, ⟨7, _⟩ => ⟨S1100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1100000, .i32⟩
  | .hbm, ⟨27, _⟩ => ⟨S1100000, .i1⟩
  | .hbm, ⟨28, _⟩ => ⟨S_, .i32⟩
  | .hbm, ⟨29, _⟩ => ⟨S1100000, .i32⟩
  | .hbm, ⟨30, _⟩ => ⟨S1100000, .i32⟩
  | .hbm, ⟨31, _⟩ => ⟨S1100000, .i32⟩
  | .hbm, ⟨32, _⟩ => ⟨S1100000x1, .i32⟩
  | .hbm, ⟨33, _⟩ => ⟨S1100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S100000x64, .f32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S1100000x1, .f32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«146609_j82300163326464_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«146609_j82300163326464_2_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.ScaledRows.lean ====
/-
  What the one pallas_call leaves in its output array: the rows of x · W, each scaled by its node's factor.

  The grid has 20 points; point t works on rows 5000·t … 5000·t + 4999.  Its body multiplies the block of x by the
  whole of W (into a zero accumulator; the narrowing of the operands is the identity on the extended reals), stretches
  the block of the factor column across the 64 columns and multiplies entry by entry.  Every one of these acts on each
  row by itself, so the block written at point t is the block of rows of the whole-array expression
      (x · W) ⊙ (factor column stretched across the columns),
  and the 20 blocks tile the 100000 rows: the array ends holding that expression.
-/
import proofs.«146609_j82300163326464_2_alg».proof.Proof.Gen.KernelIdeal.Frame
import proofs.«146609_j82300163326464_2_alg».proof.Proof.LibBlockOfWhole
import Idealize.ShloMosaic.Lib.Pipeline.Value

set_option maxRecDepth 16384

noncomputable section

namespace Cert.KernelIdeal.RowsValue

open Cert.KernelIdeal Cert.KernelIdeal.Gen
open Idealize.ShloMosaic Idealize.ShloMosaic.TcCoe Idealize.SL.Sem Cert.Blocks
open Idealize.ShloMosaic.Pipeline (Dat)

/-- The rows of x · W, row r scaled by the factor column's entry (r, 0): the whole-array expression. -/
def scaledRows (D : DotDims S100000x64 S64x64 S100000x64) (X : FVec Ideal S100000x64 .f32) (W : FVec Ideal S64x64 .f32)
    (M : FVec Ideal S100000x1 .f32) : FVec Ideal S100000x64 .f32 :=
  mulf (Host.dotGeneral D none X W) (broadcastInDim S100000x64 ![0, 1] bcast_S100000x1_S100000x64_0_1 M)

/-- The body's arithmetic on the block of rows o … o + 4999 is that block of the whole-array expression. -/
theorem body_rowBlk (o : Nat) (h : o + 5000 ≤ 100000) (D : DotDims S100000x64 S64x64 S100000x64)
    (hD : D = DotDims.plain 100000 64 64)
    (X : FVec Ideal S100000x64 .f32) (W : FVec Ideal S64x64 .f32) (M : FVec Ideal S100000x1 .f32) :
    k0_pay1 (F := Ideal) (rowBlk o h X) W (rowBlk (C := 1) o h M) = rowBlk o h (scaledRows D X W M) := by
  unfold k0_pay1 scaledRows
  dsimp only
  rw [truncf_ideal, truncf_ideal, shapeCast_self]
  exact (congrArg₂ (mulf (F := Ideal) (s := S5000x64) (φ := .f32))
      (matmul_rowBlk o h dot_S5000x64_S64x64_S5000x64_1_0_0_1_n_n rfl D hD X W)
      (colStretch_rowBlk o h M broadcasts_S5000x1_S5000x64 bcast_S100000x1_S100000x64_0_1)).trans
    (mulf_rowBlk o h _ _)

/-- The same, for blocks given entry by entry. -/
theorem body_at (o : Nat) (h : o + 5000 ≤ 100000) (D : DotDims S100000x64 S64x64 S100000x64)
    (hD : D = DotDims.plain 100000 64 64)
    (X : FVec Ideal S100000x64 .f32) (W : FVec Ideal S64x64 .f32) (M : FVec Ideal S100000x1 .f32)
    (x0 : Vec Ideal S5000x64 .f32) (x1 : Vec Ideal S64x64 .f32) (x2 : Vec Ideal S5000x1 .f32)
    (h0 : ∀ y, x0 y = X (shiftRow o h y)) (h1 : ∀ y, x1 y = W y) (h2 : ∀ y, x2 y = M (shiftRow (C := 1) o h y))
    (j : S5000x64.Idx) :
    k0_pay1 (F := Ideal) x0 x1 x2 j = scaledRows D X W M (shiftRow o h j) := by
  have e0 : x0 = rowBlk o h X := funext h0
  have e1 : x1 = W := funext h1
  have e2 : x2 = rowBlk (C := 1) o h M := funext h2
  rw [e0, e1, e2, body_rowBlk o h D hD X W M]
  rfl

theorem origin : (![0, 0] : Fin 2 → Nat) = fun _ => 0 := funext fun a => by fin_cases a <;> rfl

/-- The printed index maps over the grid: the blocks of x, of the factor column and of the output move with the
    point along the rows; W's block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- For ANY three arrays: what the body leaves at point t, from the three arrays' blocks at t, is block t of the
    whole-array expression of the three arrays. (Stated over variable arrays: nothing of a particular array's
    contents is looked at.) -/
theorem point_writes (D : DotDims S100000x64 S64x64 S100000x64) (hD : D = DotDims.plain 100000 64 64)
    (A0 : FVec Ideal S100000x64 .f32) (A1 : FVec Ideal S64x64 .f32) (A2 : FVec Ideal S100000x1 .f32)
    (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (scaledRows D A0 A1 A2) := by
  have ht : t.val < 20 := lt_of_lt_of_eq t.isLt N_0
  have hrow : t.val * 5000 + 5000 ≤ 100000 := by omega
  obtain ⟨a0, a1, b0, b1, c0, c1, d0, d1⟩ := idx_facts t
  unfold out0_3
  rw [View.canon_unit_zero origin]
  simp only [View.ld_unit_zero (S := S5000x64) origin, View.ld_unit_zero (S := S64x64) origin,
    View.ld_unit_zero (S := S5000x1) origin]
  funext j
  refine (body_at (t.val * 5000) hrow D hD A0 A1 A2
    (((cfg0.win 0).blk t).view.read (Elt Ideal) A0) (((cfg0.win 1).blk t).view.read (Elt Ideal) A1)
    (((cfg0.win 2).blk t).view.read (Elt Ideal) A2) ?_ ?_ ?_ j).trans ?_
  · intro y
    show A0 (((cfg0.win 0).blk t).view.emb y) = A0 (shiftRow (t.val * 5000) hrow y)
    refine congrArg A0 (funext fun a => Fin.ext ?_)
    match a with
    | ⟨0, _⟩ =>
      show win0_0.index t (0 : Fin 2) * 5000 + 1 * (y 0).val = t.val * 5000 + (y 0).val
      rw [a0]; omega
    | ⟨1, _⟩ =>
      show win0_0.index t (1 : Fin 2) * 64 + 1 * (y 1).val = (y 1).val
      rw [a1]; omega
  · intro y
    show A1 (((cfg0.win 1).blk t).view.emb y) = A1 y
    refine congrArg A1 (funext fun a => Fin.ext ?_)
    match a with
    | ⟨0, _⟩ =>
      show win0_1.index t (0 : Fin 2) * 64 + 1 * (y 0).val = (y 0).val
      rw [b0]; omega
    | ⟨1, _⟩ =>
      show win0_1.index t (1 : Fin 2) * 64 + 1 * (y 1).val = (y 1).val
      rw [b1]; omega
  · intro y
    show A2 (((cfg0.win 2).blk t).view.emb y) = A2 (shiftRow (C := 1) (t.val * 5000) hrow y)
    refine congrArg A2 (funext fun a => Fin.ext ?_)
    match a with
    | ⟨0, _⟩ =>
      show win0_2.index t (0 : Fin 2) * 5000 + 1 * (y 0).val = t.val * 5000 + (y 0).val
      rw [c0]; omega
    | ⟨1, _⟩ =>
      show win0_2.index t (1 : Fin 2) * 1 + 1 * (y 1).val = (y 1).val
      rw [c1]; omega
  · generalize scaledRows D A0 A1 A2 = G
    show G (shiftRow (t.val * 5000) hrow j) = G (((cfg0.win 3).blk t).view.emb j)
    refine congrArg G (funext fun a => Fin.ext ?_)
    match a with
    | ⟨0, _⟩ =>
      show t.val * 5000 + (j 0).val = win0_3.index t (0 : Fin 2) * 5000 + 1 * (j 0).val
      rw [d0]; omega
    | ⟨1, _⟩ =>
      show (j 1).val = win0_3.index t (1 : Fin 2) * 64 + 1 * (j 1).val
      rw [d1]; omega

/-- An index of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- The 20 blocks tile the rows: row r is in the block of point r / 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨_, _, _, _, _, _, d0, d1⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [d0]
    show (i 0).val / 5000 * 5000 ≤ (i 0).val ∧ (i 0).val < (i 0).val / 5000 * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    rw [d1]; omega

variable (m : (ℓ : Loc nD τ sig) → Buf (Elt Ideal) ℓ)

/-- What point t writes back is block t of the whole-array expression of the arrays as the region finds them. -/
theorem flushed_eq (D : DotDims S100000x64 S64x64 S100000x64) (hD : D = DotDims.plain 100000 64 64)
    (c : Dev nD) (t : Fin cfg0.N) :
    (dats m 0 c).flushed 3 t = ((cfg0.win 3).blk t).view.read (Elt Ideal)
      (scaledRows D (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold iblk
  exact point_writes D hD (V m c (Pipeline.arrRef spec0 0)) (V m c (Pipeline.arrRef spec0 1))
    (V m c (Pipeline.arrRef spec0 2)) t

/-- THE ARRAY after the run: the output array holds the whole-array expression. -/
theorem final (D : DotDims S100000x64 S64x64 S100000x64) (hD : D = DotDims.plain 100000 64 64) (c : Dev nD) :
    (dats m 0 c).arrAt 3 cfg0.N
      = scaledRows D (V m c (Pipeline.arrRef spec0 0)) (V m c (Pipeline.arrRef spec0 1)) (V m c (Pipeline.arrRef spec0 2)) :=
  (dats m 0 c).arrAt_eq_of_cover 3
    (scaledRows D (V m c (Pipeline.arrRef spec0 0)) (V m c (Pipeline.arrRef spec0 1)) (V m c (Pipeline.arrRef spec0 2)))
    (fun t _ => flushed_eq m D hD c t) covered

end Cert.KernelIdeal.RowsValue

end
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.LibJoinCongr.lean ====
/-
  Joining two arrays along an axis respects equality of the pieces.

  The join's side condition speaks only of the pieces' shapes, so replacing each piece by an equal one of the same
  shape leaves the condition as it is.  Stated as a congruence rule for the two pieces.
-/
import Idealize.ShloMosaic.PureOps.ShapeOps

namespace Cert.Lib.JoinCongr

open Idealize.ShloMosaic

/-- Two pieces joined along an axis: equal pieces give equal joins. -/
theorem concatenate_pair_congr {α : Type} {t : Shape} {d : Fin t.rank} {s1 s2 : Shape} {a a' : s1.Idx → α} {b b' : s2.Idx → α}
    (h : Shape.Concatenates ([(⟨s1, a⟩ : (s : Shape) × (s.Idx → α)), ⟨s2, b⟩].map (·.1)) t d) (ha : a = a') (hb : b = b') :
    concatenate t d [⟨s1, a⟩, ⟨s2, b⟩] h = concatenate t d [⟨s1, a'⟩, ⟨s2, b'⟩] h := by
  subst ha; subst hb; rfl

end Cert.Lib.JoinCongr
-- ==== Proof.HostSides.lean ====
/-
  The host operations around the pallas_call, read as whole-array expressions of the arguments.

  Before the call the program builds, from the edge list e : [2, 1000000] (row 0 the sources, row 1 the targets):
    * the source and target words of the 1100000 messages: the list's row followed by the self-loops 0 … 99999;
    * the degree of every node: 1 added at the target of every message, starting from 0;
    * the factor of every node: where(degree > 0, rsqrt(degree), 0), recast as a column [100000, 1].
  After the call it wraps negative source words by + 100000, gathers the scaled rows at the sources, adds each
  gathered row into its target's row starting from 0, multiplies row n by node n's factor and adds the bias.
  The region's own arrays are read back as the region left them: the inputs unchanged, the output at the rows of
  x · W scaled by the factors.
-/
import proofs.«146609_j82300163326464_2_alg».proof.Proof.ScaledRows
import proofs.«146609_j82300163326464_2_alg».proof.Proof.LibTypedRef
import proofs.«146609_j82300163326464_2_alg».proof.Proof.LibJoinCongr
import Idealize.ShloMosaic.Lib.StableHlo.Run
import Idealize.ShloMosaic.Lib.Pipeline.Value

set_option maxRecDepth 16384

noncomputable section

namespace Cert.KernelIdeal.HostValue

open Cert.KernelIdeal Cert.KernelIdeal.Gen Cert.KernelIdeal.RowsValue
open Idealize.ShloMosaic Idealize.ShloMosaic.TcCoe Idealize.SL.Sem Idealize.ShloMosaic.StableHlo

/-! ## The arrays the host builds from the edge list -/

/-- The messages' source words: row 0 of the edge list, then the self-loops 0 … 99999. -/
def srcWords (e : IVec S2x1000000 32) : IVec S1100000 32 :=
  concatenate S1100000 0
    [⟨S1000000, shapeCast S1000000 (extractStridedSlice S1x1000000 ![0, 0] e slices_S2x1000000_S1x1000000_0_0)
        shapeCasts_S1x1000000_S1000000⟩,
      ⟨S100000, iotaInDim S100000 32 0⟩]
    concatenates_S1000000_S100000_S1100000_d0

/-- The messages' target words: row 1 of the edge list, then the self-loops 0 … 99999. -/
def dstWords (e : IVec S2x1000000 32) : IVec S1100000 32 :=
  concatenate S1100000 0
    [⟨S1000000, shapeCast S1000000 (extractStridedSlice S1x1000000 ![1, 0] e slices_S2x1000000_S1x1000000_1_0)
        shapeCasts_S1x1000000_S1000000⟩,
      ⟨S100000, iotaInDim S100000 32 0⟩]
    concatenates_S1000000_S100000_S1100000_d0

/-- Every node's degree: 1 added at the target of every message, from 0. -/
def degree (e : IVec S2x1000000 32) : FVec Ideal S100000 .f32 :=
  Host.scatterAdd scatter_S100000_S1100000x1_S1100000_n_0_0_1
    (broadcastInDim S100000 ![] bcast_S_S100000 (constant (F := Ideal) S_ .f32 0x00000000#32))
    (broadcastInDim S1100000x1 ![0] bcast_S1100000_S1100000x1_0 (dstWords e))
    (broadcastInDim S1100000 ![] bcast_S_S1100000 (constant (F := Ideal) S_ .f32 0x3F800000#32))

/-- Every node's factor: where(degree > 0, rsqrt(degree), 0). -/
def factor (e : IVec S2x1000000 32) : FVec Ideal S100000 .f32 :=
  select (cmpf .ogt (degree e) (broadcastInDim S100000 ![] bcast_S_S100000 (constant (F := Ideal) S_ .f32 0x00000000#32)))
    (Host.rsqrt (degree e))
    (broadcastInDim S100000 ![] bcast_S_S100000 (id (constant (F := Ideal) S_ .f32 0x00000000#32)))

variable (m : (ℓ : Loc nD τ sig) → Buf (Elt Ideal) ℓ)

/-! ## Contents carried to a literal typed reference and back: the identity, on any array -/

theorem toBuf_v14 (p1 : main_v14.ty = ⟨S100000, .f32⟩) (p2 : main_v14.space ≠ .host) (p3 : main_v14.isScoped = false)
    (v : (⟨S100000, .f32⟩ : BufTy).Contents (Elt Ideal)) :
    (TRef.of (T := ⟨S100000, .f32⟩) main_v14 p1 p2 p3).toBuf v = v := rfl
theorem ofBuf_v12 (p1 : main_v12.ty = ⟨S100000, .i1⟩) (p2 : main_v12.space ≠ .host) (p3 : main_v12.isScoped = false)
    (v : (⟨S100000, .i1⟩ : BufTy).Contents (Elt Ideal)) :
    (TRef.of (T := ⟨S100000, .i1⟩) main_v12 p1 p2 p3).ofBuf v = v := rfl
theorem ofBuf_v13 (p1 : main_v13.ty = ⟨S100000, .f32⟩) (p2 : main_v13.space ≠ .host) (p3 : main_v13.isScoped = false)
    (v : (⟨S100000, .f32⟩ : BufTy).Contents (Elt Ideal)) :
    (TRef.of (T := ⟨S100000, .f32⟩) main_v13 p1 p2 p3).ofBuf v = v := rfl
theorem ofBuf_cst2 (p1 : main_cst_2.ty = ⟨S_, .f32⟩) (p2 : main_cst_2.space ≠ .host) (p3 : main_cst_2.isScoped = false)
    (v : (⟨S_, .f32⟩ : BufTy).Contents (Elt Ideal)) :
    (TRef.of (T := ⟨S_, .f32⟩) main_cst_2 p1 p2 p3).ofBuf v = v := rfl

/-! ## The arrays the region finds, as expressions of the edge list -/

attribute [local congr] Cert.Lib.JoinCongr.concatenate_pair_congr

set_option maxHeartbeats 2000000 in
/-- The factor column, as the region finds it. -/
theorem factorColumn (c : Dev nD) :
    (V m c main_v15 : S100000x1.Idx → EReal)
      = shapeCast S100000x1 (factor (m (c, Proc.devRef .tc main_arg1))) shapeCasts_S100000_S100000x1 := by
  dsimp only [Gen.V, Gen.V0]
  simp only [Gen.hostOps0, Gen.hostOps0_1, Gen.hostOps0_2, List.flatten_cons, List.flatten_nil, List.append_nil,
    List.cons_append, List.nil_append]
  after_results_simp
  simp only [Cert.Lib.TypedRef.ofBuf_toBuf, Cert.Lib.TypedRef.toBuf_ofBuf, toBuf_v14, ofBuf_v12, ofBuf_v13, ofBuf_cst2]
  rfl

set_option maxHeartbeats 2000000 in
/-- The messages' source words, as the host leaves them. -/
theorem srcArray (c : Dev nD) :
    (V m c main_v3 : S1100000.Idx → BitVec 32) = srcWords (m (c, Proc.devRef .tc main_arg1)) := by
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 2000000 in
/-- The messages' target words, as the host leaves them. -/
theorem dstArray (c : Dev nD) :
    (V m c main_v6 : S1100000.Idx → BitVec 32) = dstWords (m (c, Proc.devRef .tc main_arg1)) := by
  dsimp only [Gen.V, Gen.V0]
  simp only [Gen.hostOps0, Gen.hostOps0_1, Gen.hostOps0_2, List.flatten_cons, List.flatten_nil, List.append_nil,
    List.cons_append, List.nil_append]
  after_results_simp
  rfl

/-! ## The region's arrays and the other buffers, read after the region -/

/-- The factor column is an input of the region: it is read back unchanged. -/
theorem after_v15 (c : Dev nD) :
    Pipeline.withArrays (cfgs 0).spec c (V0 m c) (fun w => (dats m 0 c).arrAt w (cfgs 0).N) (Proc.devRef .tc main_v15)
      = V m c main_v15 :=
  (Pipeline.withArrays_arr spec0 launch0.win.arr_inj c (V0 m c) (fun w => (dats m 0 c).arrAt w (cfgs 0).N) 2).trans
    (((dats m 0 c).arrAt_in 2 rfl _).trans (A_eq m c 2))

/-- The region's output array holds the rows of x · W scaled by the factors. -/
theorem after_v16 (D : DotDims S100000x64 S64x64 S100000x64) (hD : D = DotDims.plain 100000 64 64) (c : Dev nD) :
    Pipeline.withArrays (cfgs 0).spec c (V0 m c) (fun w => (dats m 0 c).arrAt w (cfgs 0).N) (Proc.devRef .tc main_v16)
      = scaledRows D (V m c (Pipeline.arrRef spec0 0)) (V m c (Pipeline.arrRef spec0 1)) (V m c (Pipeline.arrRef spec0 2)) :=
  (Pipeline.withArrays_arr spec0 launch0.win.arr_inj c (V0 m c) (fun w => (dats m 0 c).arrAt w (cfgs 0).N) 3).trans
    (final m D hD c)

/-- A buffer that is no array of the region is read back as the region found it. -/
theorem after_rest (c : Dev nD) (b : Ref sig .tc) (hb : ∀ w, Pipeline.arrRef spec0 w ≠ b) :
    Pipeline.withArrays (cfgs 0).spec c (V0 m c) (fun w => (dats m 0 c).arrAt w (cfgs 0).N) (Proc.devRef .tc b)
      = V m c b :=
  Pipeline.withArrays_of_ne _ c (V0 m c) _ b hb

set_option maxHeartbeats 2000000 in
/-- @main's result after the host operations that follow the region, over the arrays as the region found or left
    them. -/
theorem tail_value (D : DotDims S100000x64 S64x64 S100000x64) (hD : D = DotDims.plain 100000 64 64) (c : Dev nD) :
    (Pipeline.afterTail₀ cfgs (dats m) 0 (V0 m) [hostOps1] c main_v31 : S100000x64.Idx → EReal)
      = addf (mulf (broadcastInDim S100000x64 ![0, 1] bcast_S100000x1_S100000x64_0_1 (V m c main_v15))
          (Host.scatterAdd scatter_S100000x64_S1100000x1_S1100000x64_1_0_0_1
            (broadcastInDim S100000x64 ![] bcast_S_S100000x64 (constant (F := Ideal) S_ .f32 0x00000000#32))
            (broadcastInDim S1100000x1 ![0] bcast_S1100000_S1100000x1_0 (V m c main_v6))
            (Host.gather gather_S100000x64_S1100000x1_S1100000x64_1_0_n_n_0_1_164
              (scaledRows D (V m c (Pipeline.arrRef spec0 0)) (V m c (Pipeline.arrRef spec0 1))
                (V m c (Pipeline.arrRef spec0 2)))
              (broadcastInDim S1100000x1 ![0] bcast_S1100000_S1100000x1_0
                (select (cmpi .slt (V m c main_v3) (broadcastInDim S1100000 ![] bcast_S_S1100000 (constantI S_ 32 0#32)))
                  (addi (V m c main_v3) (broadcastInDim S1100000 ![] bcast_S_S1100000 (constantI S_ 32 100000#32)))
                  (V m c main_v3))))))
        (broadcastInDim S100000x64 ![0, 1] bcast_S1x64_S100000x64_0_1
          (broadcastInDim S1x64 ![1] bcast_S64_S1x64_1 (V m c main_arg3))) := by
  unfold Pipeline.afterTail₀
  show StableHlo.after hostOps1 _ (Proc.devRef .tc main_v31) = _
  after_results_simp
  rw [after_v15 m c, after_v16 m D hD c, after_rest m c main_v6 (by decide), after_rest m c main_v3 (by decide),
    after_rest m c main_arg3 (by decide)]

end Cert.KernelIdeal.HostValue

end
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibRows2.lean ====
/-
  Whole rows of a rank-2 array moved by an index column, read at an entry, and the host's accumulating scatter of
  rows written as a sum over the edges; a vector picked by an index column likewise.

  For an operand of shape [N, D], an index column [E, 1] and rows [E, D]:
  * jnp's x[idx] (a row gather) at entry (e, j) is the operand at row idx[e] — read signed and clamped into
    [0, N − 1] — and the same j;
  * update entry (e, j) of the row scatter lands on operand entry (n, j') exactly when idx[e], read signed and not
    clamped, is n and j = j';
  * hence the scattered sum at (n, j) is the operand entry plus the sum over the edges e with idx[e] = n of the
    update entry (e, j).
  For a vector [N] picked by a column [E, 1], entry e is the vector at idx[e] read signed and clamped.
  Nothing here mentions a program: the shapes are literal ranks with symbolic extents.
-/
import Idealize.ShloMosaic.PureOps.Ideal.Laws
import Idealize.ShloMosaic.Lib.ValueIdx
import proofs.«146609_j82300163326464_2_alg».proof.Proof.LibScatterForms

noncomputable section

namespace Cert.Rows2

open Idealize.ShloMosaic Idealize.ShloMosaic.ValueIdx

/-! ## The row gather of a rank-2 operand -/

/-- The dimension numbers of x[idx] for x : [N, D] and idx : [E] given as a column [E, 1]: whole rows. -/
abbrev pickRows2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gather is the operand at row idx[e, 0] — read signed and clamped into [0, N − 1] — and the
    same column j. -/
theorem gather_pickRows2_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (pickRows2 N D E wf) x idx (ix2 e j)
      = x (ix2 ⟨min (idx (ix2 e (0 : Fin 1))).toInt.toNat (N - 1), by omega⟩ j) := by
  unfold Host.gather
  congr 1
  funext c
  refine Fin.ext ?_
  have hnb : ∀ c : Fin 2, (pickRows2 N D E wf).batchCoord (ix2 e j) c = 0 := fun c =>
    GatherDims.batchCoord_eq_zero _ _ _ List.not_mem_nil
  have hs : ∀ c : Fin 2, c ≠ 0 → (pickRows2 N D E wf).start (ix2 e j) idx c = 0 := by
    intro c hc
    unfold GatherDims.start
    rw [dif_neg (show ¬ c ∈ (pickRows2 N D E wf).startIndexMap from fun h => hc (List.mem_singleton.mp h))]
  match c with
  | ⟨0, _⟩ =>
    show (pickRows2 N D E wf).start (ix2 e j) idx 0 + (pickRows2 N D E wf).batchCoord (ix2 e j) 0
      + (pickRows2 N D E wf).offCoord (ix2 e j) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows2 N D E wf).startIndexMap from List.mem_singleton.mpr rfl)]
    have hsi : (pickRows2 N D E wf).siIdx (ix2 e j) ⟨List.idxOf (0 : Fin 2) (pickRows2 N D E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows2 N D E wf).start (ix2 e j) idx 1 + (pickRows2 N D E wf).batchCoord (ix2 e j) 1
      + (pickRows2 N D E wf).offCoord (ix2 e j) 1 = j.val
    rw [hs 1 (by decide), hnb]
    have hk : (1 : Fin 2) ∈ (pickRows2 N D E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl

/-! ## A vector picked by an index column -/

/-- The dimension numbers of x[idx] for x : [N] and idx : [E] given as a column [E, 1]: single entries. -/
abbrev pick1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the vector at idx[e, 0], read signed and clamped into [0, N − 1]. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext c
  refine Fin.ext ?_
  have hnb : ∀ c : Fin 1, (pick1 N E wf).batchCoord (ix1 e) c = 0 := fun c =>
    GatherDims.batchCoord_eq_zero _ _ _ List.not_mem_nil
  match c with
  | ⟨0, _⟩ =>
    show (pick1 N E wf).start (ix1 e) idx 0 + (pick1 N E wf).batchCoord (ix1 e) 0
      + (pick1 N E wf).offCoord (ix1 e) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 1) ∈ (pick1 N E wf).startIndexMap from List.mem_singleton.mpr rfl)]
    have hsi : (pick1 N E wf).siIdx (ix1 e) ⟨List.idxOf (0 : Fin 1) (pick1 N E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl

/-! ## The row scatter of a rank-2 operand -/

/-- The dimension numbers of x.at[idx].add(u) for x : [N, D], idx : [E] as a column [E, 1] and u : [E, D]: update
    row e goes, whole, to operand row idx[e]. -/
abbrev rowScatter2 (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N D E w : Nat} (wf : ScatterDims.WF ⟨2, ![N, D]⟩ ⟨2, ![E, 1]⟩ ⟨2, ![E, D]⟩ [1] [0] [0] 1)
  (idx : IVec ⟨2, ![E, 1]⟩ w) (e : Fin E) (j : Fin D)

theorem rowScatter2_start0 : (rowScatter2 N D E wf).start (ix2 e j) idx 0 = (idx (ix2 e (0 : Fin 1))).toInt := by
  unfold ScatterDims.start
  rw [dif_pos (show (0 : Fin 2) ∈ (rowScatter2 N D E wf).scatterDimsToOperandDims from List.mem_singleton.mpr rfl)]
  have hsi : (rowScatter2 N D E wf).siIdx (ix2 e j) ⟨List.idxOf (0 : Fin 2) (rowScatter2 N D E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter2_start1 : (rowScatter2 N D E wf).start (ix2 e j) idx 1 = 0 := by
  unfold ScatterDims.start
  rw [dif_neg (show ¬ (1 : Fin 2) ∈ (rowScatter2 N D E wf).scatterDimsToOperandDims from
    fun h => absurd (congrArg Fin.val (List.mem_singleton.mp h)) Nat.one_ne_zero)]

theorem rowScatter2_window0 : (rowScatter2 N D E wf).window (ix2 e j) 0 = 0 := by
  unfold ScatterDims.window
  rw [dif_neg (show ¬ (0 : Fin 2) ∈ (rowScatter2 N D E wf).sKept from
    fun h => (of_decide_eq_true (List.mem_filter.mp h).2) (List.mem_singleton.mpr rfl))]

theorem rowScatter2_window1 : (rowScatter2 N D E wf).window (ix2 e j) 1 = j.val := by
  have hk : (1 : Fin 2) ∈ (rowScatter2 N D E wf).sKept := by
    simp [ScatterDims.sKept, Shape.kept, List.mem_filter, List.mem_finRange]
  unfold ScatterDims.window
  rw [dif_pos hk]
  rfl

/-- Update entry (e, j) lands on operand entry (n, j') exactly when its row index, read signed, is n and the
    columns agree. -/
theorem rowScatter2_lands (n : Fin N) (j' : Fin D) :
    (rowScatter2 N D E wf).resultIdx? (ix2 e j) idx = some (ix2 n j')
      ↔ (idx (ix2 e (0 : Fin 1))).toInt = (n.val : Int) ∧ j = j' := by
  rw [Cert.ScatterForms.resultIdx?_eq_some_iff]
  constructor
  · intro h
    have h0 : (idx (ix2 e (0 : Fin 1))).toInt + ((0 : ℕ) : Int) = (n.val : Int) := by
      have := h 0
      rwa [rowScatter2_start0, rowScatter2_window0] at this
    have h1 : (0 : Int) + ((j.val : ℕ) : Int) = (j'.val : Int) := by
      have := h 1
      rwa [rowScatter2_start1, rowScatter2_window1] at this
    refine ⟨by simpa using h0, Fin.ext ?_⟩
    omega
  · rintro ⟨h0, rfl⟩ c
    match c with
    | ⟨0, _⟩ =>
      show (rowScatter2 N D E wf).start (ix2 e j) idx 0 + ((rowScatter2 N D E wf).window (ix2 e j) 0 : Int) = (n.val : Int)
      rw [rowScatter2_start0, rowScatter2_window0]
      simpa using h0
    | ⟨1, _⟩ =>
      show (rowScatter2 N D E wf).start (ix2 e j) idx 1 + ((rowScatter2 N D E wf).window (ix2 e j) 1 : Int) = (j.val : Int)
      rw [rowScatter2_start1, rowScatter2_window1]
      simp

end

/-- The scattered sum at entry (n, j): the operand entry plus, over the edges whose row index read signed is n, the
    update entry (e, j). -/
theorem hostScatterAdd_rows2_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (j : Fin D) :
    Ideal.hostScatterAdd (rowScatter2 N D E wf) x idx u (ix2 n j)
      = x (ix2 n j) + ∑ e : Fin E, if (idx (ix2 e (0 : Fin 1))).toInt = (n.val : Int) then u (ix2 e j) else 0 := by
  unfold Ideal.hostScatterAdd
  congr 1
  rw [← Finset.sum_filter]
  refine Finset.sum_bij' (fun i _ => i 0) (fun e _ => ix2 e j) ?_ ?_ ?_ ?_ ?_
  · intro i hi
    obtain ⟨e, j1, rfl⟩ : ∃ e j1, i = ix2 e j1 := ⟨i 0, i 1, eq_ix2 i⟩
    exact Finset.mem_filter.mpr ⟨Finset.mem_univ _,
      ((rowScatter2_lands wf idx e j1 n j).mp (Finset.mem_filter.mp hi).2).1⟩
  · intro e he
    exact Finset.mem_filter.mpr ⟨Finset.mem_univ _,
      (rowScatter2_lands wf idx e j n j).mpr ⟨(Finset.mem_filter.mp he).2, rfl⟩⟩
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl
  · intro e _
    rfl
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl

end Cert.Rows2

end
-- ==== Proof.LibNormPush.lean ====
/-
  Pulling the target node's normalisation out of the neighbour sum.

  A graph convolution with symmetric normalisation sends node n to
      sum over the edges e that point at n of  xw[src e] * (dinv[src e] * dinv[n])   (+ bias).
  The factor dinv[n] is the same for every edge of the sum, so it may be applied once, after the sum, to rows that
  were scaled by dinv[src e] beforehand:
      dinv[n] * (sum over the edges e that point at n of  (xw * dinv)[src e])          (+ bias).
  On the extended reals a factor distributes over a sum when it is nonnegative and not +inf; nothing is asked of xw.
  An edge points at n when its target index, read signed and not clamped, is n; the per-edge factor dinv[dst e] is
  read through a second index column (the targets after negative indices were wrapped) that is clamped into range:
  all that is needed of it is that it reads node n for every edge that points at n.

  The arrays are [N, D] (rows per node), [N] / [N, 1] (one factor per node) and columns [E, 1] of edge indices;
  the extents are symbolic.
-/
import Idealize.ShloMosaic.PureOps.Ideal.Laws
import Idealize.ShloMosaic.PureOps.Contract
import Idealize.ShloMosaic.Lib.ValueIdx
import Idealize.ShloMosaic.Lib.Pipeline.Value
import proofs.«146609_j82300163326464_2_alg».proof.Proof.LibRows2

noncomputable section

namespace Cert.NormPush

open Idealize.ShloMosaic Idealize.ShloMosaic.ValueIdx Cert.Rows2
open scoped BigOperators

/-- A nonnegative factor that is not +inf distributes over a finite sum of extended reals. -/
theorem mul_sum_of_nonneg_ne_top {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- At the ideal values the host's accumulating scatter is the exact sum. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

theorem mulf_ideal_apply {s : Shape} {φ : FTy} (a b : FVec Ideal s φ) (i : s.Idx) : mulf a b i = a i * b i := rfl

theorem addf_ideal_apply {s : Shape} {φ : FTy} (a b : FVec Ideal s φ) (i : s.Idx) : addf a b i = a i + b i := rfl

variable {N D E : Nat}

/-- A column [N, 1] stretched across D columns reads, at (n, j), the column at (n, 0). -/
theorem stretchCol_apply {α : Type} (h : (⟨2, ![N, 1]⟩ : Shape).BroadcastsInDim ⟨2, ![N, D]⟩ ![0, 1])
    (M : (⟨2, ![N, 1]⟩ : Shape).Idx → α) (n : Fin N) (j : Fin D) :
    broadcastInDim ⟨2, ![N, D]⟩ ![0, 1] h M (ix2 n j) = M (ix2 n (0 : Fin 1)) :=
  broadcastInDim_apply ![0, 1] h M (ix2 n j) (ix2 n (0 : Fin 1)) (fun a => by
    match a with
    | ⟨0, _⟩ =>
      show n.val = if N = 1 then 0 else n.val
      have hn := n.isLt
      split_ifs with hN
      · omega
      · rfl
    | ⟨1, _⟩ => exact (if_pos rfl).symm)

/-- A vector [E] laid out as a column [E, 1] reads, at (e, 0), the vector at e. -/
theorem vecCol_apply {α : Type} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) :=
  broadcastInDim_apply ![0] h v (ix2 e z) (ix1 e) (fun a => by
    match a with
    | ⟨0, _⟩ =>
      show e.val = if E = 1 then 0 else e.val
      have he := e.isLt
      split_ifs with hE
      · omega
      · rfl)

/-- THE LAW. Rows scaled by their own node's factor, gathered along the edges, summed into the target nodes and
    scaled once more by the target's factor, are the rows gathered unscaled, each multiplied by the product of the
    two factors of its edge, and summed. -/
theorem scale_sum_scale (hN : 0 < N)
    (gR : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D])
    (hgR : gR = pickRows2 N D E wfg)
    (g1 : GatherDims ⟨1, ![N]⟩ ⟨2, ![E, 1]⟩ ⟨1, ![E]⟩)
    (wf1 : GatherDims.WF ⟨1, ![N]⟩ ⟨2, ![E, 1]⟩ ⟨1, ![E]⟩ [] [0] [] [0] [] 1 ![1])
    (hg1 : g1 = pick1 N E wf1)
    (sc : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1)
    (hsc : sc = rowScatter2 N D E wfs)
    (hbM : (⟨2, ![N, 1]⟩ : Shape).BroadcastsInDim ⟨2, ![N, D]⟩ ![0, 1])
    (hbE1 : (⟨1, ![E]⟩ : Shape).BroadcastsInDim ⟨2, ![E, 1]⟩ ![0])
    (hbED : (⟨2, ![E, 1]⟩ : Shape).BroadcastsInDim ⟨2, ![E, D]⟩ ![0, 1])
    (XW Z B : FVec Ideal ⟨2, ![N, D]⟩ .f32) (M : FVec Ideal ⟨2, ![N, 1]⟩ .f32) (dinv : FVec Ideal ⟨1, ![N]⟩ .f32)
    (srcI dstI dstN : IVec ⟨2, ![E, 1]⟩ 32)
    (hdinv : ∀ n : Fin N, 0 ≤ dinv (ix1 n) ∧ dinv (ix1 n) ≠ ⊤)
    (hM : ∀ n : Fin N, M (ix2 n (0 : Fin 1)) = dinv (ix1 n))
    (hZ : ∀ i, Z i = 0)
    (hdst : ∀ (e : Fin E) (n : Fin N), (dstI (ix2 e (0 : Fin 1))).toInt = (n.val : Int) →
      min (dstN (ix2 e (0 : Fin 1))).toInt.toNat (N - 1) = n.val) :
    addf (mulf (broadcastInDim ⟨2, ![N, D]⟩ ![0, 1] hbM M)
        (Host.scatterAdd sc Z dstI
          (Host.gather gR (mulf XW (broadcastInDim ⟨2, ![N, D]⟩ ![0, 1] hbM M)) srcI))) B
      = addf (Host.scatterAdd sc Z dstI
          (mulf (Host.gather gR XW srcI)
            (broadcastInDim ⟨2, ![E, D]⟩ ![0, 1] hbED (broadcastInDim ⟨2, ![E, 1]⟩ ![0] hbE1
              (mulf (Host.gather g1 dinv srcI) (Host.gather g1 dinv dstN)))))) B := by
  subst hgR hg1 hsc
  funext i
  obtain ⟨n, j, rfl⟩ : ∃ (n : Fin N) (j : Fin D), i = ix2 n j := ⟨i 0, i 1, eq_ix2 i⟩
  obtain ⟨h0, ht⟩ := hdinv n
  rw [addf_ideal_apply, addf_ideal_apply, mulf_ideal_apply, scatterAdd_ideal, scatterAdd_ideal,
    hostScatterAdd_rows2_apply, hostScatterAdd_rows2_apply, stretchCol_apply, hM, hZ, zero_add, zero_add,
    mul_sum_of_nonneg_ne_top _ _ h0 ht]
  congr 1
  refine Finset.sum_congr rfl (fun e _ => ?_)
  split_ifs with hl
  · have hn : (⟨min (dstN (ix2 e (0 : Fin 1))).toInt.toNat (N - 1), by omega⟩ : Fin N) = n := Fin.ext (hdst e n hl)
    rw [gather_pickRows2_apply hN, mulf_ideal_apply, mulf_ideal_apply, gather_pickRows2_apply hN, stretchCol_apply,
      stretchCol_apply, hM, vecCol_apply, mulf_ideal_apply, gather_pick1_apply hN, gather_pick1_apply hN, hn]
    ac_rfl
  · exact mul_zero _

end Cert.NormPush

end
-- ==== Proof.LibDegreeNorm.lean ====
/-
  Three small facts about the normalisation of a graph convolution, each read entry by entry.

  * The factor dinv = where(deg > 0, rsqrt(deg), 0) is a nonnegative real number at every node, whatever extended
    real deg is: for deg <= 0 (or -inf) it is 0, for deg = +inf it is 1/sqrt(+inf) = 0, and for a positive real
    it is the positive real 1/sqrt(deg).
  * Wrapping negative indices (i < 0 becomes i + N) changes no index that is already a node: an edge whose target
    word, read signed, is the node n still reads n after the wrap, and clamping n into [0, N - 1] keeps it.
  * A vector [N] recast as a column [N, 1] reads, at (n, 0), the vector at n.
-/
import Idealize.ShloMosaic.PureOps.Ideal.Laws
import Idealize.ShloMosaic.Lib.ValueIdx
import Idealize.ShloMosaic.Lib.Pipeline.Value
import proofs.«146609_j82300163326464_2_alg».proof.Proof.LibNormPush

noncomputable section

namespace Cert.NormPush

open Idealize.ShloMosaic Idealize.ShloMosaic.ValueIdx

/-- where(deg > 0, rsqrt(deg), 0) is nonnegative and not +inf, at every entry and for every extended real deg. -/
theorem invSqrt_nonneg_ne_top {s : Shape} (deg zs zs' : FVec Ideal s .f32) (hz : ∀ i, zs i = 0) (hz' : ∀ i, zs' i = 0)
    (i : s.Idx) :
    0 ≤ select (cmpf .ogt deg zs) (Host.rsqrt deg) zs' i ∧ select (cmpf .ogt deg zs) (Host.rsqrt deg) zs' i ≠ ⊤ := by
  have e : select (cmpf .ogt deg zs) (Host.rsqrt deg) zs' i
      = if (0 : EReal) < deg i then Ideal.rsqrt (deg i) else 0 := by
    show Scalar.select (Ideal.cmp .ogt (deg i) (zs i)) (Ideal.rsqrt (deg i)) (zs' i) = _
    rw [hz, hz']
    unfold Scalar.select Ideal.cmp
    by_cases h : (0 : EReal) < deg i
    · simp [h]
    · simp [h]
  rw [e]
  generalize deg i = d
  split_ifs with h
  · induction d using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · exact ⟨le_refl _, EReal.zero_ne_top⟩

variable {N E : Nat}

/-- An edge whose target word reads, signed, the node n reads n again after negative words were wrapped by + N
    and the result clamped into [0, N - 1]. -/
theorem wrapped_target (hb : (⟨1, ![E]⟩ : Shape).BroadcastsInDim ⟨2, ![E, 1]⟩ ![0])
    (T c0 cN : IVec ⟨1, ![E]⟩ 32) (h0 : ∀ i, c0 i = 0#32) (e : Fin E) (n : Fin N)
    (h : (broadcastInDim ⟨2, ![E, 1]⟩ ![0] hb T (ix2 e (0 : Fin 1))).toInt = (n.val : Int)) :
    min (broadcastInDim ⟨2, ![E, 1]⟩ ![0] hb (select (cmpi .slt T c0) (addi T cN) T) (ix2 e (0 : Fin 1))).toInt.toNat
      (N - 1) = n.val := by
  rw [vecCol_apply] at h ⊢
  have hslt : (T (ix1 e)).slt 0#32 = false := by
    simp [BitVec.slt, h]
  have hsel : select (cmpi .slt T c0) (addi T cN) T (ix1 e) = T (ix1 e) := by
    show Scalar.select (IntOp.cmpi .slt (T (ix1 e)) (c0 (ix1 e))) _ _ = _
    rw [h0]
    unfold Scalar.select IntOp.cmpi
    simp [hslt]
  rw [hsel, h]
  have hn := n.isLt
  omega

/-- A vector [N] recast as a column [N, 1] reads, at (n, 0), the vector at n. -/
theorem castCol_apply {α : Type} (hc : (⟨1, ![N]⟩ : Shape).ShapeCasts ⟨2, ![N, 1]⟩)
    (v : (⟨1, ![N]⟩ : Shape).Idx → α) (n : Fin N) :
    shapeCast ⟨2, ![N, 1]⟩ v hc (ix2 n (0 : Fin 1)) = v (ix1 n) :=
  shapeCast_apply v hc (ix2 n (0 : Fin 1)) (ix1 n) (by
    rw [Shape.rowMajor_val_one, Shape.rowMajor_val_two]
    show n.val = n.val * 1 + 0
    omega)

/-- The f32 pattern of 0.0, broadcast over any shape, is 0 everywhere. -/
theorem splat_zero (s : Shape) (h : (⟨0, ![]⟩ : Shape).BroadcastsInDim s ![]) (i : s.Idx) :
    broadcastInDim s ![] h (constant (F := Ideal) ⟨0, ![]⟩ .f32 0x00000000#32) i = 0 := by
  show Ideal.ofBits .f32 0x00000000#32 = 0
  exact Ideal.ofBits_zero_f32

end Cert.NormPush

end
-- ==== Proof.Bridge.lean ====
/-
  The two programs compute one array.

  The kernel's program ends at
      factor[n] * (0 + sum over the messages e with target n of ((x · W)[src e] * factor[src e])) + bias
  and the reference at
      (0 + sum over the messages e with target n of (x · W)[src e] * (factor[src e] * factor[dst' e])) + bias,
  where factor = where(degree > 0, rsqrt(degree), 0) is a nonnegative real at every node (so it distributes over the
  sum, on the extended reals, whatever x and W hold), and dst' e — the target word wrapped and clamped — is n for
  every message that is added into row n.  The source words are wrapped and clamped alike on both sides.
-/
import proofs.«146609_j82300163326464_2_alg».proof.Defs
import proofs.«146609_j82300163326464_2_alg».proof.Proof.HostSides
import proofs.«146609_j82300163326464_2_alg».proof.Proof.RefRun
import proofs.«146609_j82300163326464_2_alg».proof.Proof.LibDegreeNorm

set_option maxRecDepth 16384

noncomputable section

namespace Cert.Bridge

open Idealize.ShloMosaic Idealize.ShloMosaic.TcCoe Idealize.SL.Sem Idealize.ShloMosaic.ValueIdx
open Cert.NormPush Cert.Rows2

/-- The product x · W is taken with the reference's dimension numbers on both sides: a plain [N, K] by [K, C] product. -/
theorem refDot_plain :
    (Cert.ReferenceIdeal.dot_S100000x64_S64x64_S100000x64_1_0_0_1_n_n
      : DotDims Cert.KernelIdeal.S100000x64 Cert.KernelIdeal.S64x64 Cert.KernelIdeal.S100000x64)
      = DotDims.plain 100000 64 64 := rfl

set_option maxHeartbeats 4000000 in
/-- What the kernel's program leaves in its result buffer is the reference's result term, when the two launch memories
    agree on the four arguments. -/
theorem kernel_eq_reference
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Pipeline.afterTail₀ Cert.KernelIdeal.cfgs (Cert.KernelIdeal.Gen.dats m) 0 (Cert.KernelIdeal.Gen.V0 m)
        [Cert.KernelIdeal.Gen.hostOps1] c Cert.KernelIdeal.main_v31 : Cert.KernelIdeal.S100000x64.Idx → EReal)
      = Cert.ReferenceIdeal.ValueP.res_main_v46 m' c := by
  rw [Cert.KernelIdeal.HostValue.tail_value m _ refDot_plain c, Cert.KernelIdeal.HostValue.factorColumn,
    Cert.KernelIdeal.HostValue.srcArray, Cert.KernelIdeal.HostValue.dstArray, Cert.KernelIdeal.Gen.V_main_arg3,
    (Cert.KernelIdeal.Gen.V_main_arg0 m c : Cert.KernelIdeal.Gen.V m c (Pipeline.arrRef Cert.KernelIdeal.spec0 0) = _),
    (Cert.KernelIdeal.Gen.V_main_arg2 m c : Cert.KernelIdeal.Gen.V m c (Pipeline.arrRef Cert.KernelIdeal.spec0 1) = _)]
  unfold Cert.ReferenceIdeal.ValueP.res_main_v46
  rw [h0, h1, h2, h3]
  unfold Cert.KernelIdeal.RowsValue.scaledRows Cert.KernelIdeal.HostValue.factor Cert.KernelIdeal.HostValue.degree
    Cert.KernelIdeal.HostValue.srcWords Cert.KernelIdeal.HostValue.dstWords
  exact scale_sum_scale (N := 100000) (D := 64) (E := 1100000) (by norm_num)
    Cert.KernelIdeal.gather_S100000x64_S1100000x1_S1100000x64_1_0_n_n_0_1_164
    Cert.KernelIdeal.Gen.gather_S100000x64_S1100000x1_S1100000x64_1_0_n_n_0_1_164_wf rfl
    Cert.ReferenceIdeal.gather_S100000_S1100000x1_S1100000_n_0_n_n_0_1_1
    Cert.ReferenceIdeal.Gen.gather_S100000_S1100000x1_S1100000_n_0_n_n_0_1_1_wf rfl
    Cert.KernelIdeal.scatter_S100000x64_S1100000x1_S1100000x64_1_0_0_1
    Cert.KernelIdeal.Gen.scatter_S100000x64_S1100000x1_S1100000x64_1_0_0_1_wf rfl
    _ _ _ _ _ _ _ _ _ _ _
    (fun n => invSqrt_nonneg_ne_top _ _ _ (fun i => splat_zero _ _ i) (fun i => splat_zero _ _ i) (ix1 n))
    (fun n => castCol_apply _ _ n)
    (fun i => splat_zero _ _ i)
    (fun e n h => wrapped_target _ _ _ _ (fun _ => rfl) e n h)

end Cert.Bridge

end
-- ==== Proof.lean ====
/-
  A graph convolution (GCNConv without edge attributes) on 100000 nodes and 1000000 edges plus one self-loop per
  node: x' = x · W, symmetric normalisation by the target-degree, messages summed into their targets, bias added.

  The kernel's program scales row r of x · W by factor[r] inside its one pallas_call (20 blocks of 5000 rows),
  gathers the scaled rows along the messages' sources, sums them into the targets and multiplies row n by
  factor[n]; the reference multiplies every gathered row of x · W by factor[src] * factor[dst] and sums.  Here
  factor = where(degree > 0, rsqrt(degree), 0), which is a nonnegative real number at every node whatever the edge
  list holds, so it distributes over the sum on the extended reals; a message is added into row n exactly when its
  target word is n, and then the reference's factor[dst] is factor[n].  Nothing is asked of x, W or the bias: the
  precondition is not used.

  The three frames: the two kernels' are the generated frame certificates; the reference has no kernel and its frame
  is its run with the result dropped.  The idealisation rewrote no operation, so there is nothing to preserve.
-/
import proofs.«146609_j82300163326464_2_alg».proof.Defs
import proofs.«146609_j82300163326464_2_alg».proof.Proof.Gen.Kernel
import proofs.«146609_j82300163326464_2_alg».proof.Proof.Gen.Kernel.Skeleton
import proofs.«146609_j82300163326464_2_alg».proof.Proof.Gen.Kernel.Launch
import proofs.«146609_j82300163326464_2_alg».proof.Proof.Gen.Kernel.Points
import proofs.«146609_j82300163326464_2_alg».proof.Proof.Gen.Kernel.Frame
import proofs.«146609_j82300163326464_2_alg».proof.Proof.Gen.KernelIdeal
import proofs.«146609_j82300163326464_2_alg».proof.Proof.Gen.KernelIdeal.Skeleton
import proofs.«146609_j82300163326464_2_alg».proof.Proof.Gen.KernelIdeal.Launch
import proofs.«146609_j82300163326464_2_alg».proof.Proof.Gen.KernelIdeal.Points
import proofs.«146609_j82300163326464_2_alg».proof.Proof.Gen.KernelIdeal.Frame
import proofs.«146609_j82300163326464_2_alg».proof.Proof.Gen.ReferenceIdeal
import proofs.«146609_j82300163326464_2_alg».proof.Proof.Gen.Pre_finite_inputs
import proofs.«146609_j82300163326464_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's result term in their result buffers: the reference by its run, the
    kernel's program by its frame run — whose post names the result after the host operations that follow the
    region — and the equality of the two terms. -/
theorem algebraic : Cert.algebraic_KernelIdeal_ReferenceIdeal := by
  intro m ρ m' ρ' _ hagree
  refine ⟨fun c => Cert.ReferenceIdeal.ValueP.res_main_v46 m' c, ?_, Cert.ReferenceIdeal.ValueP.run (F := Ideal) m' ρ'⟩
  refine (θ_run Cert.KernelIdeal.defs _ _).mono (fun r h c => ?_) (Cert.KernelIdeal.Gen.run_main m ρ)
  refine ⟨?_, ?_, ?_, ?_, ?_⟩
  · exact ((h c).2 Cert.KernelIdeal.main_v31 (Pipeline.mem_restRefs_of Cert.KernelIdeal.main_v31 (by decide) (by decide))).trans
      (Cert.Bridge.kernel_eq_reference m m' c (hagree c).1 (hagree c).2.1 (hagree c).2.2.1 (hagree c).2.2.2)
  · exact ((h c).1 0).trans (((Cert.KernelIdeal.Gen.dats m 0 c).arrAt_in 0 rfl _).trans
      ((Cert.KernelIdeal.Gen.A_eq m c 0).trans (Cert.KernelIdeal.Gen.V_main_arg0 m c)))
  · exact ((h c).2 Cert.KernelIdeal.main_arg1 (Pipeline.mem_restRefs_of Cert.KernelIdeal.main_arg1 (by decide) (by decide))).trans
      (Cert.KernelIdeal.Gen.W_main_arg1 m (Cert.KernelIdeal.Gen.dats m) c)
  · exact ((h c).1 1).trans (((Cert.KernelIdeal.Gen.dats m 0 c).arrAt_in 1 rfl _).trans
      ((Cert.KernelIdeal.Gen.A_eq m c 1).trans (Cert.KernelIdeal.Gen.V_main_arg2 m c)))
  · exact ((h c).2 Cert.KernelIdeal.main_arg3 (Pipeline.mem_restRefs_of Cert.KernelIdeal.main_arg3 (by decide) (by decide))).trans
      (Cert.KernelIdeal.Gen.W_main_arg3 m (Cert.KernelIdeal.Gen.dats m) c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
